-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostArrays.lean ====
/-
  The five arrays the kernel's grid reads, as functions of the program's arguments.

  Before the grid runs, the program computes on the host exactly what the reference computes first: the mean over
  incoming edges of the source rows (gather, two scatter-adds, a maximum with one, a division) and the two
  transposed weight matrices. The grid finds these results, the feature rows themselves, and the bias reshaped to a
  row. Each is stated here in the words of the reference's own stages, so that the two programs are compared on the
  same terms and the aggregation is never opened. A reshape of a vector of 128 numbers to one row, and a broadcast
  of it to one row, are the same row.
-/
import proofs.«149656_j68195490726430_1_alg».proof.Proof.Gen.KernelIdeal.Frame
import proofs.«149656_j68195490726430_1_alg».proof.Proof.Gen.ReferenceIdeal.Read
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated rows: the reference's mean aggregation of the same feature rows and edge list. -/
theorem V_agg (c : Dev nD) :
    (V m c main_v22 : S50000x128.Idx → EReal)
      = Cert.ReferenceIdeal.Read.val_main_v22 (F := Ideal) (m ((c : Thread nD τ).loc main_arg0)) (m ((c : Thread nD τ).loc main_arg1)) := by
  dsimp only [V, hostOps0]
  after_results_simp <;> rfl

/-- The first weight matrix, transposed. -/
theorem V_wl (c : Dev nD) :
    (V m c main_v23 : S128x128.Idx → EReal)
      = Cert.ReferenceIdeal.Read.val_main_v23 (F := Ideal) (m ((c : Thread nD τ).loc main_arg2)) := by
  dsimp only [V, hostOps0]
  after_results_simp <;> rfl

/-- The second weight matrix, transposed. -/
theorem V_wr (c : Dev nD) :
    (V m c main_v24 : S128x128.Idx → EReal)
      = Cert.ReferenceIdeal.Read.val_main_v28 (F := Ideal) (m ((c : Thread nD τ).loc main_arg4)) := by
  dsimp only [V, hostOps0]
  after_results_simp <;> rfl

/-- A vector of 128 numbers reshaped to one row is the vector broadcast to one row: both hold b[q] at (0, q). -/
theorem reshape_row (b : S128.Idx → EReal) :
    shapeCast S1x128 b shapeCasts_S128_S1x128 = Cert.ReferenceIdeal.Read.val_main_v25 (F := Ideal) b := by
  funext i
  rw [Cert.ReferenceIdeal.Read.val_main_v25_apply]
  exact shapeCast_apply b shapeCasts_S128_S1x128 i (Cert.ReferenceIdeal.Read.idx_main_v25 i)
    (by rewrite [Shape.rowMajor_val_one, Shape.rowMajor_val_two]
        have h0 : (i 0).val < 1 := (i 0).isLt
        show (i 1).val = (i 0).val * 128 + (i 1).val
        omega)

/-- The bias as a row. -/
theorem V_bias (c : Dev nD) :
    (V m c main_v25 : S1x128.Idx → EReal)
      = Cert.ReferenceIdeal.Read.val_main_v25 (F := Ideal) (m ((c : Thread nD τ).loc main_arg3)) := by
  refine Eq.trans ?_ (reshape_row _)
  dsimp only [V, hostOps0]
  after_results_simp <;> rfl

end Cert.KernelIdeal.Entry

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Spec.lean ====
/-
  A graph layer with mean aggregation ends in a linear stage: each node's output row is its aggregated-neighbour
  row times one weight matrix, plus its own feature row times a second weight matrix, plus a bias row. This file
  states that stage as one function of five arrays, entry by entry, on the extended reals, and the two facts the
  certificate needs about it: the three summands may be added in either of the two groupings the programs use, and
  an entry depends only on one row of each of the two row-indexed arrays (so a block of rows of the result is the
  same function of the matching blocks of rows).
-/
import Idealize.ShloMosaic.PureOps.Ideal
import Idealize.ShloMosaic.Lib.ValueIdx

noncomputable section

namespace Cert.Sage

open Idealize.ShloMosaic Idealize.ShloMosaic.ValueIdx

variable {R : ℕ}

/-- Entry (r, c) of the linear stage: the sum over k of A[r,k]·P[k,c], plus the sum over k of X[r,k]·Q[k,c], plus
    the bias b[0,c]. Here P and Q are the weight matrices laid out with the contracted axis first, and b is a
    single row. -/
def entry (A X : FVec Ideal ⟨2, ![R, 128]⟩ .f32) (P Q : FVec Ideal ⟨2, ![128, 128]⟩ .f32)
    (b : FVec Ideal ⟨2, ![1, 128]⟩ .f32) (r : Fin R) (c : Fin 128) : EReal :=
  (∑ k : Fin 128, A (ix2 r k) * P (ix2 k c) + ∑ k : Fin 128, X (ix2 r k) * Q (ix2 k c)) + b (ix2 0 c)

/-- The linear stage as a whole array: its entry at every index. -/
def rowsCombine (A X : FVec Ideal ⟨2, ![R, 128]⟩ .f32) (P Q : FVec Ideal ⟨2, ![128, 128]⟩ .f32)
    (b : FVec Ideal ⟨2, ![1, 128]⟩ .f32) : FVec Ideal ⟨2, ![R, 128]⟩ .f32 :=
  fun i => entry A X P Q b (i 0) (i 1)

theorem rowsCombine_ix2 (A X : FVec Ideal ⟨2, ![R, 128]⟩ .f32) (P Q : FVec Ideal ⟨2, ![128, 128]⟩ .f32)
    (b : FVec Ideal ⟨2, ![1, 128]⟩ .f32) (r : Fin R) (c : Fin 128) :
    rowsCombine A X P Q b (ix2 r c) = entry A X P Q b r c := rfl

/-- Adding the bias after the first product and before the second gives the same entry: addition of extended reals
    is commutative and associative (no finiteness is needed). -/
theorem entry_bias_first (A X : FVec Ideal ⟨2, ![R, 128]⟩ .f32) (P Q : FVec Ideal ⟨2, ![128, 128]⟩ .f32)
    (b : FVec Ideal ⟨2, ![1, 128]⟩ .f32) (r : Fin R) (c : Fin 128) :
    (∑ k : Fin 128, A (ix2 r k) * P (ix2 k c) + b (ix2 0 c)) + ∑ k : Fin 128, X (ix2 r k) * Q (ix2 k c)
      = entry A X P Q b r c := by
  unfold entry
  exact add_right_comm _ _ _

/-- An entry reads only row r of the two row-indexed arrays: two pairs of arrays (possibly of different heights)
    that agree on the rows in question give the same entry. -/
theorem entry_rows {R' : ℕ} (A X : FVec Ideal ⟨2, ![R, 128]⟩ .f32) (A' X' : FVec Ideal ⟨2, ![R', 128]⟩ .f32)
    (P Q : FVec Ideal ⟨2, ![128, 128]⟩ .f32) (b : FVec Ideal ⟨2, ![1, 128]⟩ .f32) (r : Fin R) (r' : Fin R') (c : Fin 128)
    (hA : ∀ k : Fin 128, A' (ix2 r' k) = A (ix2 r k)) (hX : ∀ k : Fin 128, X' (ix2 r' k) = X (ix2 r k)) :
    entry A' X' P Q b r' c = entry A X P Q b r c := by
  unfold entry
  simp only [hA, hX]

end Cert.Sage

end
-- ==== Proof.Payload.lean ====
/-
  What the kernel body stores at one grid step, entry by entry, on the extended reals.

  The body loads a block of aggregated rows, the matching block of feature rows, the two weight matrices (already
  laid out with the contracted axis first) and the bias row; it multiplies each block of rows by its matrix, adds
  the two products, and adds the bias row broadcast down the rows. The changes of float format on the way into the
  products are the identity on extended reals, a shape cast to the same shape is the identity, and a matrix product
  into a zero accumulator is the plain sum over the contracted index. So the stored block is the linear stage of
  the loaded blocks.
-/
import proofs.«149656_j68195490726430_1_alg».proof.Proof.Gen.KernelIdeal.Skeleton
import proofs.«149656_j68195490726430_1_alg».proof.Proof.LibMatmulSum
import proofs.«149656_j68195490726430_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's dimension record: which coordinate of each operand comes from where -/

theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The body's three non-pointwise pieces, each read at an entry -/

/-- A block of rows times a matrix, accumulated into zero: entry (p, q) is the sum over k of l[p,k]·r[k,q]. -/
theorem product_entry (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.GraphConv.matmul_zero_sum dot_S5000x128_S128x128_S5000x128_1_0_0_1_n_n none rfl rfl dot_l0 dot_l1 dot_r0 dot_r1 l r (ix2 p q)

/-- The bias row broadcast down the 5000 rows of a block: entry (p, q) is b[0,q]. -/
theorem bias_entry (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])

/-! ## The stored block -/

/-- The value the body stores is the linear stage of its five loaded blocks. -/
theorem payload_eq (x0 x1 : Vec Ideal S5000x128 .f32) (x2 x3 : Vec Ideal S128x128 .f32) (x4 : Vec Ideal S1x128 .f32) :
    k0_pay1 (F := Ideal) x0 x1 x2 x3 x4 = Cert.Sage.rowsCombine x0 x1 x2 x3 x4 := by
  funext j
  obtain ⟨p, q, rfl⟩ : ∃ (p : Fin 5000) (q : Fin 128), j = ix2 p q := ⟨j 0, j 1, eq_ix2 j⟩
  unfold k0_pay1
  simp only [shapeCast_self]
  rw [Cert.Sage.rowsCombine_ix2]
  unfold Cert.Sage.entry
  refine congrArg₂ (· + ·) (congrArg₂ (· + ·) ?_ ?_) ?_
  · exact product_entry _ _ p q
  · exact product_entry _ _ p q
  · exact bias_entry x4 p q

end Cert.KernelIdeal.Body

end
-- ==== Proof.KernelValue.lean ====
/-
  From the ten blocks to the whole result array.

  The grid has ten steps. Step t reads rows 5000·t … 5000·t + 4999 of the aggregated rows and of the feature rows,
  the whole of both weight matrices and of the bias row, and writes back rows 5000·t … 5000·t + 4999 of the result.
  An entry of the linear stage depends only on its own row of the two row-indexed arrays, so what step t writes back
  is exactly block t of the linear stage of the whole arrays; the ten blocks cover the 50000 rows (row r lies in
  block r / 5000); hence the result array ends holding the linear stage of the arrays the grid found.
-/
import proofs.«149656_j68195490726430_1_alg».proof.Proof.Gen.KernelIdeal.Value
import proofs.«149656_j68195490726430_1_alg».proof.Proof.Payload
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Which block each window holds at step t (decided over the ten steps): the two row-indexed inputs and the
    output move down one block of rows per step; the two matrices and the bias row stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the grid leaves in the result buffer: the linear stage of the five arrays as the grid finds them. -/
abbrev result (c : Dev nD) : S50000x128.Idx → EReal :=
  Cert.Sage.rowsCombine (R := 50000) (V m c main_v22) (V m c main_arg0) (V m c main_v23) (V m c main_v24) (V m c main_v25)

/-! ## Each input block as part of its array -/

/-- Row x of the aggregated block at step t is row 5000·t + x of the aggregated array. -/
theorem agg_block (c : Dev nD) (t : Fin cfg0.N) (x : S5000x128.Idx) (i : S50000x128.Idx)
    (h0 : (i 0).val = t.val * 5000 + (x 0).val) (h1 : (i 1).val = (x 1).val) :
    (iblk m c 0 t : Vec Ideal S5000x128 .f32) x = (V m c main_v22 : S50000x128.Idx → EReal) i := by
  obtain ⟨e0, e1, -⟩ := idx_facts t
  have h : ((cfg0.win 0).blk t).view.emb x = i := by
    funext a
    apply Fin.ext
    match a with
    | ⟨0, _⟩ => show win0_0.index t (0 : Fin 2) * 5000 + 1 * (x 0).val = (i 0).val; rw [e0, h0]; omega
    | ⟨1, _⟩ => show win0_0.index t (1 : Fin 2) * 128 + 1 * (x 1).val = (i 1).val; rw [e1, h1]; omega
  unfold iblk
  rw [View.read_apply, cast_eq]
  exact congrArg (V m c main_v22 : S50000x128.Idx → EReal) h

/-- Row x of the feature block at step t is row 5000·t + x of the feature array. -/
theorem feat_block (c : Dev nD) (t : Fin cfg0.N) (x : S5000x128.Idx) (i : S50000x128.Idx)
    (h0 : (i 0).val = t.val * 5000 + (x 0).val) (h1 : (i 1).val = (x 1).val) :
    (iblk m c 1 t : Vec Ideal S5000x128 .f32) x = (V m c main_arg0 : S50000x128.Idx → EReal) i := by
  obtain ⟨-, -, e0, e1, -⟩ := idx_facts t
  have h : ((cfg0.win 1).blk t).view.emb x = i := by
    funext a
    apply Fin.ext
    match a with
    | ⟨0, _⟩ => show win0_1.index t (0 : Fin 2) * 5000 + 1 * (x 0).val = (i 0).val; rw [e0, h0]; omega
    | ⟨1, _⟩ => show win0_1.index t (1 : Fin 2) * 128 + 1 * (x 1).val = (i 1).val; rw [e1, h1]; omega
  unfold iblk
  rw [View.read_apply, cast_eq]
  exact congrArg (V m c main_arg0 : S50000x128.Idx → EReal) h

/-- At every step the first matrix block is the whole first matrix. -/
theorem wl_block (c : Dev nD) (t : Fin cfg0.N) :
    (iblk m c 2 t : Vec Ideal S128x128 .f32) = (V m c main_v23 : S128x128.Idx → EReal) := by
  obtain ⟨-, -, -, -, e0, e1, -⟩ := idx_facts t
  funext x
  have h : ((cfg0.win 2).blk t).view.emb x = x := by
    funext a
    apply Fin.ext
    match a with
    | ⟨0, _⟩ => show win0_2.index t (0 : Fin 2) * 128 + 1 * (x 0).val = (x 0).val; rw [e0]; omega
    | ⟨1, _⟩ => show win0_2.index t (1 : Fin 2) * 128 + 1 * (x 1).val = (x 1).val; rw [e1]; omega
  unfold iblk
  rw [View.read_apply, cast_eq]
  exact congrArg (V m c main_v23 : S128x128.Idx → EReal) h

/-- At every step the second matrix block is the whole second matrix. -/
theorem wr_block (c : Dev nD) (t : Fin cfg0.N) :
    (iblk m c 3 t : Vec Ideal S128x128 .f32) = (V m c main_v24 : S128x128.Idx → EReal) := by
  obtain ⟨-, -, -, -, -, -, e0, e1, -⟩ := idx_facts t
  funext x
  have h : ((cfg0.win 3).blk t).view.emb x = x := by
    funext a
    apply Fin.ext
    match a with
    | ⟨0, _⟩ => show win0_3.index t (0 : Fin 2) * 128 + 1 * (x 0).val = (x 0).val; rw [e0]; omega
    | ⟨1, _⟩ => show win0_3.index t (1 : Fin 2) * 128 + 1 * (x 1).val = (x 1).val; rw [e1]; omega
  unfold iblk
  rw [View.read_apply, cast_eq]
  exact congrArg (V m c main_v24 : S128x128.Idx → EReal) h

/-- At every step the bias block is the whole bias row. -/
theorem bias_block (c : Dev nD) (t : Fin cfg0.N) :
    (iblk m c 4 t : Vec Ideal S1x128 .f32) = (V m c main_v25 : S1x128.Idx → EReal) := by
  obtain ⟨-, -, -, -, -, -, -, -, e0, e1, -⟩ := idx_facts t
  funext x
  have h : ((cfg0.win 4).blk t).view.emb x = x := by
    funext a
    apply Fin.ext
    match a with
    | ⟨0, _⟩ => show win0_4.index t (0 : Fin 2) * 1 + 1 * (x 0).val = (x 0).val; rw [e0]; omega
    | ⟨1, _⟩ => show win0_4.index t (1 : Fin 2) * 128 + 1 * (x 1).val = (x 1).val; rw [e1]; omega
  unfold iblk
  rw [View.read_apply, cast_eq]
  exact congrArg (V m c main_v25 : S1x128.Idx → EReal) h

/-! ## One step's block of the result -/

/-- The linear stage of blocks, at entry y, is the linear stage of the whole arrays at the entry y sits at: stated
    over arbitrary blocks and arrays that agree on the rows in question. -/
theorem stage_entry (x0 x1 : Vec Ideal S5000x128 .f32) (x2 x3 : Vec Ideal S128x128 .f32) (x4 : Vec Ideal S1x128 .f32)
    (A X : S50000x128.Idx → EReal) (y : S5000x128.Idx) (i : S50000x128.Idx)
    (hA : ∀ k : Fin 128, x0 (ix2 (y 0) k) = A (ix2 (i 0) k)) (hX : ∀ k : Fin 128, x1 (ix2 (y 0) k) = X (ix2 (i 0) k))
    (h1 : i 1 = y 1) :
    k0_pay1 (F := Ideal) x0 x1 x2 x3 x4 y = Cert.Sage.rowsCombine (R := 50000) A X x2 x3 x4 i := by
  rw [Cert.KernelIdeal.Body.payload_eq]
  show Cert.Sage.entry x0 x1 x2 x3 x4 (y 0) (y 1) = Cert.Sage.entry A X x2 x3 x4 (i 0) (i 1)
  rw [h1]
  exact Cert.Sage.entry_rows A X x0 x1 x2 x3 x4 (i 0) (y 0) (y 1) hA hX

/-- What step t writes back is block t of the result. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S5000x128) hz, View.ld_unit_zero (S := S128x128) hz, View.ld_unit_zero (S := S1x128) hz]
  rw [wl_block m c t, wr_block m c t, bias_block m c t]
  obtain ⟨-, -, -, -, -, -, -, -, -, -, e0, e1⟩ := idx_facts t
  funext j
  rw [View.read_apply, cast_eq]
  have r0 : ((((cfg0.win 5).blk t).view.emb j) 0).val = t.val * 5000 + (j 0).val := by
    show win0_5.index t (0 : Fin 2) * 5000 + 1 * (j 0).val = _; rw [e0]; omega
  have r1 : ((((cfg0.win 5).blk t).view.emb j) 1).val = (j 1).val := by
    show win0_5.index t (1 : Fin 2) * 128 + 1 * (j 1).val = _; rw [e1]; omega
  exact stage_entry (iblk m c 0 t) (iblk m c 1 t) (V m c main_v23) (V m c main_v24) (V m c main_v25)
    (V m c main_v22) (V m c main_arg0) ((cfg0.win 5).xinj (grid0.coords t) j) (((cfg0.win 5).blk t).view.emb j)
    (fun k => agg_block m c t (ix2 (((cfg0.win 5).xinj (grid0.coords t) j) 0) k) (ix2 ((((cfg0.win 5).blk t).view.emb j) 0) k) r0 rfl)
    (fun k => feat_block m c t (ix2 (((cfg0.win 5).xinj (grid0.coords t) j) 0) k) (ix2 ((((cfg0.win 5).blk t).view.emb j) 0) k) r0 rfl)
    (Fin.ext r1)
/-! ## The cover, the whole array, the run -/

/-- An index of the result array is in step t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every entry of the result array lies in some step's block: row r in the block of step r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; rw [hN]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]
    omega

/-- So the result array ends holding the linear stage of the arrays the grid found. -/
theorem final (c : Dev nD) : (dats m 0 c).arrAt 5 cfg0.N = result m c :=
  (dats m 0 c).arrAt_eq_of_cover 5 (result m c) (fun t _ => flushed_eq m c t) cover

/-- The kernel's run: the result buffer at the linear stage, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefLayer.lean ====
/-
  The reference's last eight operations, read at an entry on the extended reals.

  After the mean aggregation the reference transposes the first weight matrix and multiplies the aggregated rows by
  it, broadcasts the bias to a row and then down the rows and adds it, transposes the second weight matrix and
  multiplies the feature rows by it, and adds. Entry (r, c) is therefore
  (sum over k of agg[r,k]·Wl^T[k,c] + b[0,c]) + sum over k of x[r,k]·Wr^T[k,c]:
  the linear stage with the bias added before the second product, which is the same extended real.
-/
import proofs.«149656_j68195490726430_1_alg».proof.Proof.Gen.ReferenceIdeal.Read
import proofs.«149656_j68195490726430_1_alg».proof.Proof.Spec

noncomputable section

namespace Cert.ReferenceIdeal.Layer

open Cert.ReferenceIdeal Cert.ReferenceIdeal.Gen Cert.ReferenceIdeal.Read Idealize.ShloMosaic Idealize.ShloMosaic.ValueIdx

/-- The reference's result is the linear stage of: the aggregated rows (its own first twenty-three operations), the
    feature rows, the two transposed weight matrices, and the bias as a row. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = Cert.Sage.rowsCombine (R := 50000) (val_main_v22 (F := Ideal) x0 x1) x0 (val_main_v23 (F := Ideal) x2)
          (val_main_v28 (F := Ideal) x4) (val_main_v25 (F := Ideal) x3) := by
  funext i
  obtain ⟨r, c, rfl⟩ : ∃ (r : Fin 50000) (c : Fin 128), i = ix2 r c := ⟨i 0, i 1, eq_ix2 i⟩
  have el24 : ∀ k : Fin 128, lidx_main_v24 (ix2 r c) k = ix2 r k := fun k => funext fun a => Fin.ext (by
    match a with | ⟨0, _⟩ => rfl | ⟨1, _⟩ => rfl)
  have er24 : ∀ k : Fin 128, ridx_main_v24 (ix2 r c) k = ix2 k c := fun k => funext fun a => Fin.ext (by
    match a with | ⟨0, _⟩ => rfl | ⟨1, _⟩ => rfl)
  have el29 : ∀ k : Fin 128, lidx_main_v29 (ix2 r c) k = ix2 r k := fun k => funext fun a => Fin.ext (by
    match a with | ⟨0, _⟩ => rfl | ⟨1, _⟩ => rfl)
  have er29 : ∀ k : Fin 128, ridx_main_v29 (ix2 r c) k = ix2 k c := fun k => funext fun a => Fin.ext (by
    match a with | ⟨0, _⟩ => rfl | ⟨1, _⟩ => rfl)
  have e26 : idx_main_v26 (ix2 r c) = ix2 0 c := funext fun a => Fin.ext (by
    match a with | ⟨0, _⟩ => rfl | ⟨1, _⟩ => rfl)
  rw [val_main_v30_apply, val_main_v27_apply, val_main_v24_apply, val_main_v26_apply, val_main_v29_apply,
    Cert.Sage.rowsCombine_ix2, ← Cert.Sage.entry_bias_first]
  simp only [Ideal.addf_def, el24, er24, el29, er29, e26]

end Cert.ReferenceIdeal.Layer

end
-- ==== Proof.lean ====
/-
  A mean-aggregation graph layer: out[i] = mean over edges into i of x[source] · W_l^T + b_l + x[i] · W_r^T, on
  50000 nodes with 128 features and 800000 edges.

  Both programs compute the mean aggregation on the host with the same operations (gather the source rows, add them
  into their destination rows, count the edges into each node, divide by the count or by one). They differ after
  that. The reference multiplies the aggregated rows by the transposed first weight matrix, adds the bias, multiplies
  the feature rows by the transposed second weight matrix, and adds: (agg · W_l^T + b) + x · W_r^T. The kernel
  transposes both matrices and reshapes the bias to a row on the host, then in ten steps of 5000 rows forms both
  products (rounding the operands to a narrower float format first, which is the identity on extended reals), adds
  them, and adds the bias row: (agg · W_l^T + x · W_r^T) + b.

  On the extended reals a matrix product is, entry by entry, the sum over the contracted index of the products of
  the operands' entries, in both programs; and (u + b) + v = (u + v) + b because addition of extended reals is
  commutative and associative. No finiteness of the inputs is used. The aggregated rows are the same term in both
  programs and are never opened.

  The pieces: the linear stage as one function and its two groupings (Proof/Spec.lean); the value the kernel body
  stores is that function of its blocks (Proof/Payload.lean, over Proof/LibMatmulSum.lean); the arrays the grid
  finds are the reference's own intermediate stages (Proof/HostArrays.lean); the ten blocks written back make up the
  function of the whole arrays (Proof/KernelValue.lean); the reference's last operations are the same function
  (Proof/RefLayer.lean). The kernel's idealization rewrote nothing, so that claim is trivial; the three frames are
  the generated runs.
-/
import proofs.«149656_j68195490726430_1_alg».proof.Defs
import proofs.«149656_j68195490726430_1_alg».proof.Proof.Gen.Kernel
import proofs.«149656_j68195490726430_1_alg».proof.Proof.Gen.Kernel.Skeleton
import proofs.«149656_j68195490726430_1_alg».proof.Proof.Gen.Kernel.Launch
import proofs.«149656_j68195490726430_1_alg».proof.Proof.Gen.Kernel.Points
import proofs.«149656_j68195490726430_1_alg».proof.Proof.Gen.Kernel.Frame
import proofs.«149656_j68195490726430_1_alg».proof.Proof.Gen.KernelIdeal
import proofs.«149656_j68195490726430_1_alg».proof.Proof.Gen.KernelIdeal.Skeleton
import proofs.«149656_j68195490726430_1_alg».proof.Proof.Gen.KernelIdeal.Launch
import proofs.«149656_j68195490726430_1_alg».proof.Proof.Gen.KernelIdeal.Points
import proofs.«149656_j68195490726430_1_alg».proof.Proof.Gen.KernelIdeal.Frame
import proofs.«149656_j68195490726430_1_alg».proof.Proof.Gen.ReferenceIdeal
import proofs.«149656_j68195490726430_1_alg».proof.Proof.Gen.Pre_finite_inputs
import proofs.«149656_j68195490726430_1_alg».proof.Proof.Gen.KernelIdeal.Value
import proofs.«149656_j68195490726430_1_alg».proof.Proof.Gen.ReferenceIdeal.Run
import proofs.«149656_j68195490726430_1_alg».proof.Proof.Gen.ReferenceIdeal.Read
import proofs.«149656_j68195490726430_1_alg».proof.Proof.HostArrays
import proofs.«149656_j68195490726430_1_alg».proof.Proof.KernelValue
import proofs.«149656_j68195490726430_1_alg».proof.Proof.RefLayer
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the five arguments both programs end with the same array: the linear stage of the
    aggregated rows, the feature rows, the transposed weight matrices and the bias row — the kernel's grouping
    (products first, then bias) and the reference's (bias between the products) being the same extended real. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Layer.result_eq,
    (hagree c).1, (hagree c).2.1, (hagree c).2.2.1, (hagree c).2.2.2.1, (hagree c).2.2.2.2]
  show _ = Cert.Sage.rowsCombine (R := 50000) (Cert.KernelIdeal.Gen.V m c Cert.KernelIdeal.main_v22)
    (Cert.KernelIdeal.Gen.V m c Cert.KernelIdeal.main_arg0) (Cert.KernelIdeal.Gen.V m c Cert.KernelIdeal.main_v23)
    (Cert.KernelIdeal.Gen.V m c Cert.KernelIdeal.main_v24) (Cert.KernelIdeal.Gen.V m c Cert.KernelIdeal.main_v25)
  rw [Cert.KernelIdeal.Entry.V_agg, Cert.KernelIdeal.Gen.V_main_arg0, Cert.KernelIdeal.Entry.V_wl,
    Cert.KernelIdeal.Entry.V_wr, Cert.KernelIdeal.Entry.V_bias]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
